-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S131072x64 .f32) (main_arg1 : FVec F S512x64 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S131072x64 : Shape := ⟨2, ![131072, 64]⟩
abbrev S512x64 : Shape := ⟨2, ![512, 64]⟩
abbrev S131072x512 : Shape := ⟨2, ![131072, 512]⟩
abbrev S4096x64 : Shape := ⟨2, ![4096, 64]⟩
abbrev S4096x512 : Shape := ⟨2, ![4096, 512]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 5
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x512, .f32⟩
  | .local _ .vmem, ⟨0, _⟩ => ⟨S4096x64, .f32⟩
  | .local _ .vmem, ⟨1, _⟩ => ⟨S4096x64, .f32⟩
  | .local _ .vmem, ⟨2, _⟩ => ⟨S512x64, .f32⟩
  | .local _ .vmem, ⟨3, _⟩ => ⟨S4096x512, .f32⟩
  | .local _ .vmem, ⟨4, _⟩ => ⟨S4096x512, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S512x64_S512x64_0_0 : ∀ a, (![0, 0] : Fin 2 → Nat) a + S512x64.size a ≤ S512x64.size a
  h_S512x64 : 0 < S512x64.numel
  reduces_S4096x64_S4096 : S4096x64.Reduces [1] S4096
  shapeCasts_S4096_S4096x1 : S4096.ShapeCasts S4096x1
  reduces_S512x64_S512 : S512x64.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S4096x1_S4096x512 : S4096x1.Broadcasts S4096x512
  broadcasts_S1x512_S4096x512 : S1x512.Broadcasts S4096x512
  inb_S4096x512_S4096x512_0_0 : ∀ a, (![0, 0] : Fin 2 → Nat) a + S4096x512.size a ≤ S4096x512.size a
  h_S4096x512 : 0 < S4096x512.numel
  dot_S4096x64_S512x64_S4096x512_1_1_0_0_n_n_wf : DotDims.WF S4096x64 S512x64 S4096x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S131072x64.size a
  hwx0_0 : ∀ i : grid0.Coords, EltTy.bits .f32 = 32 ∨ (Rect.block (s := S131072x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S131072x512.size a
  hwx0_2 : ∀ i : grid0.Coords, EltTy.bits .f32 = 32 ∨ (Rect.block (s := S131072x512) S4096x512.size (cc0_transform_2 i) (hinb0_2 i)).WholeWords (EltTy.packing .f32)

variable [Facts₀]

def dot_S4096x64_S512x64_S4096x512_1_1_0_0_n_n : DotDims S4096x64 S512x64 S4096x512 where
  lhsContracting := [1]
  rhsContracting := [1]
  lhsNonContracting := [0]
  rhsNonContracting := [0]
  lhsBatch := []
  rhsBatch := []
  wf := dot_S4096x64_S512x64_S4096x512_1_1_0_0_n_n_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S_ : Shape := ⟨0, ![]⟩
abbrev S131072 : Shape := ⟨1, ![131072]⟩
abbrev S131072x1 : Shape := ⟨2, ![131072, 1]⟩
abbrev S512 : Shape := ⟨1, ![512]⟩
abbrev S131072x512 : Shape := ⟨2, ![131072, 512]⟩
abbrev S1x512 : Shape := ⟨2, ![1, 512]⟩

abbrev nBuf : Space → Nat
  | .hbm => 25
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S131072x64, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x64, .f32⟩
  | .hbm, ⟨7, _⟩ => ⟨S_, .f32⟩
  | .hbm, ⟨8, _⟩ => ⟨S512, .f32⟩
  | .hbm, ⟨9, _⟩ => ⟨S131072x512, .f32⟩
  | .hbm, ⟨10, _⟩ => ⟨S1x512, .f32⟩
  | .hbm, ⟨11, _⟩ => ⟨S131072x512, .f32⟩
  | .hbm, ⟨12, _⟩ => ⟨S131072x512, .f32⟩
  | .hbm, ⟨13, _⟩ => ⟨S131072x512, .f32⟩
  | .hbm, ⟨14, _⟩ => ⟨S_, .f32⟩
  | .hbm, ⟨15, _⟩ => ⟨S131072x512, .f32⟩
  | .hbm, ⟨16, _⟩ => ⟨S131072x512, .f32⟩
  | .hbm, ⟨17, _⟩ => ⟨S131072x512, .f32⟩
  | .hbm, ⟨18, _⟩ => ⟨S_, .f32⟩
  | .hbm, ⟨19, _⟩ => ⟨S131072x512, .f32⟩
  | .hbm, ⟨20, _⟩ => ⟨S131072x512, .f32⟩
  | .hbm, ⟨21, _⟩ => ⟨S_, .f32⟩
  | .hbm, ⟨22, _⟩ => ⟨S131072x512, .f32⟩
  | .hbm, ⟨23, _⟩ => ⟨S131072x512, .f32⟩
  | .hbm, ⟨24, _⟩ => ⟨S131072x512, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  dot_S131072x64_S512x64_S131072x512_1_1_0_0_n_n_wf : DotDims.WF S131072x64 S512x64 S131072x512 [1] [1] [0] [0] [] []

variable [Facts₀]

def dot_S131072x64_S512x64_S131072x512_1_1_0_0_n_n : DotDims S131072x64 S512x64 S131072x512 where
  lhsContracting := [1]
  rhsContracting := [1]
  lhsNonContracting := [0]
  rhsNonContracting := [0]
  lhsBatch := []
  rhsBatch := []
  wf := dot_S131072x64_S512x64_S131072x512_1_1_0_0_n_n_wf

class Facts : Prop extends Facts₀ where

variable [Facts]
-- ==== Proof.RbfEntry.lean ====
/-
  The Gaussian similarity of a point and a prototype, from their two rows of 64 features.

  For rows `a` and `b` the squared distance is expanded as `|a|² + |b|² − 2·⟨a, b⟩`, clamped below at zero, negated and
  exponentiated: `exp (−1 · max (|a|² + |b|² − 2·⟨a, b⟩, 0))`. Both programs compute exactly this expression, with the
  same grouping `(|a|² + |b|²) − 2·⟨a, b⟩`, so no law of the extended reals beyond `0 + x = x` is needed and the inputs
  need not be finite. The three float literals (−1, 2, 0) are kept as their words: the same word stands on both sides
  and is never evaluated.

  `table X P` is the whole `131072 × 512` array: entry `(i, j)` is the similarity of row `i` of `X` and row `j` of `P`.
-/
import Idealize.ShloMosaic.PureOps.Ideal
import Idealize.ShloMosaic.Lib.ValueIdx

noncomputable section

open scoped BigOperators

namespace Cert.Rbf

open Idealize.ShloMosaic Idealize.ShloMosaic.ValueIdx

/-- `exp (−1 · max ((|a|² + |b|²) − 2·⟨a, b⟩, 0))` on the extended reals. -/
def entry (a b : Fin 64 → EReal) : EReal :=
  Ideal.exp (Ideal.ofBits .f32 0xBF800000#32 *
    max (((∑ k : Fin 64, a k * a k) + (∑ k : Fin 64, b k * b k))
          - Ideal.ofBits .f32 0x40000000#32 * ∑ k : Fin 64, a k * b k)
        (Ideal.ofBits .f32 0x00000000#32))

/-- The whole result: entry `(i, j)` from row `i` of the points and row `j` of the prototypes. -/
def table (X : (⟨2, ![131072, 64]⟩ : Shape).Idx → EReal) (P : (⟨2, ![512, 64]⟩ : Shape).Idx → EReal) :
    (⟨2, ![131072, 512]⟩ : Shape).Idx → EReal :=
  fun i => entry (fun k => X (ix2 (⟨(i 0).val, (i 0).isLt⟩ : Fin 131072) k)) (fun k => P (ix2 (⟨(i 1).val, (i 1).isLt⟩ : Fin 512) k))

/-- At an index given by its coordinates. -/
theorem table_apply (X : (⟨2, ![131072, 64]⟩ : Shape).Idx → EReal) (P : (⟨2, ![512, 64]⟩ : Shape).Idx → EReal)
    (r : Fin 131072) (q : Fin 512) :
    table X P (ix2 r q) = entry (fun k => X (ix2 r k)) (fun k => P (ix2 q k)) := rfl

end Cert.Rbf

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.BodyEntry.lean ====
/-
  One entry of the block the kernel body stores.

  The body loads a block `x` of 4096 points and the whole prototype array `p` (512 rows), and stores
  `exp (−1 · max ((|x_r|² + |p_q|²) − 2·⟨x_r, p_q⟩, 0))` at `(r, q)`. Read at one entry, the three pieces that are not
  pointwise are:
    • the points' squared norms — a sum along the feature axis kept as a column `[4096, 1]` and broadcast along the
      512 columns: at `(r, q)` it is `∑ k, x[r,k]²`;
    • the prototypes' squared norms — the same sum kept as a column `[512, 1]`, transposed to the row `[1, 512]` and
      broadcast along the 4096 rows: at `(r, q)` it is `∑ k, p[q,k]²`;
    • the cross term — a matrix product contracting the feature axis of both operands, accumulated into the zero array
      (the rounding of its operands to bf16 is the identity on the extended reals): at `(r, q)` it is `∑ k, x[r,k]·p[q,k]`.
  Everything else is pointwise, so the entry is `Cert.Rbf.entry` of row `r` of `x` and row `q` of `p`.
-/
import proofs.«103054_j65481071403945_2_alg».proof.Proof.Gen.KernelIdeal.Skeleton
import proofs.«103054_j65481071403945_2_alg».proof.Proof.RbfEntry
import proofs.«103054_j65481071403945_2_alg».proof.Proof.LibDotRows
import proofs.«103054_j65481071403945_2_alg».proof.Proof.LibColumns
import Idealize.ShloMosaic.Lib.ValueLayout
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx

/-- The sum of squares along the feature axis of an `[n, 64]` array, at row `r`. -/
theorem sumSq_row {n : Nat} (x : FVec Ideal ⟨2, ![n, 64]⟩ .f32) (h : (⟨2, ![n, 64]⟩ : Shape).Reduces [1] ⟨1, ![n]⟩)
    (hφ : FKind.Formats .f32) (hacc : (0x00000000#32 : BitVec 32) = 0x00000000#32) (r : Fin n) :
    multiReduction .add [1] ⟨1, ![n]⟩ (mulf x x) 0x00000000#32 h hφ hacc (ix1 r)
      = ∑ k : Fin 64, x (ix2 r k) * x (ix2 r k) := by
  refine (Ideal.multiReduction_add_single (mulf x x) 0x00000000#32 h hφ hacc (ix1 r)).trans ?_
  refine Finset.sum_congr rfl fun k _ => ?_
  have e : h.lift (ix1 r) k = ix2 r k :=
    funext fun a => Fin.ext (by match a with | ⟨0, _⟩ => rfl | ⟨1, _⟩ => rfl)
  exact congrArg (fun i => x i * x i) e

/-- The points' squared norms, kept as a column and spread over the columns, at `(r, q)`. -/
theorem pointNorms_apply (x : FVec Ideal S4096x64 .f32) (h : S4096x64.Reduces [1] S4096)
    (hφ : FKind.Formats .f32) (hacc : (0x00000000#32 : BitVec 32) = 0x00000000#32)
    (hc : S4096.ShapeCasts S4096x1) (hb : S4096x1.Broadcasts S4096x512) (r : Fin 4096) (q : Fin 512) :
    broadcastTo S4096x512 (shapeCast S4096x1 (multiReduction .add [1] S4096 (mulf x x) 0x00000000#32 h hφ hacc) hc) hb (ix2 r q)
      = ∑ k : Fin 64, x (ix2 r k) * x (ix2 r k) := by
  refine (broadcastTo_a1_ab_apply _ hb r q).trans ?_
  refine (shapeCast_a_a1_apply _ hc r 0).trans ?_
  exact sumSq_row x h hφ hacc r

/-- The prototypes' squared norms, kept as a column, turned into a row and spread over the rows, at `(r, q)`. -/
theorem protoNorms_apply (p : FVec Ideal S512x64 .f32) (h : S512x64.Reduces [1] S512)
    (hφ : FKind.Formats .f32) (hacc : (0x00000000#32 : BitVec 32) = 0x00000000#32)
    (hc : S512.ShapeCasts S512x1) (ht : S512x1.Transposes [1, 0] S1x512) (hb : S1x512.Broadcasts S4096x512)
    (r : Fin 4096) (q : Fin 512) :
    broadcastTo S4096x512 (transpose S1x512 [1, 0] (shapeCast S512x1 (multiReduction .add [1] S512 (mulf p p) 0x00000000#32 h hφ hacc) hc) ht) hb (ix2 r q)
      = ∑ k : Fin 64, p (ix2 q k) * p (ix2 q k) := by
  refine (broadcastTo_1b_ab_apply _ hb r q).trans ?_
  refine (transpose_ix2_apply _ ht 0 q).trans ?_
  refine (shapeCast_a_a1_apply _ hc q 0).trans ?_
  exact sumSq_row p h hφ hacc q

/-- The printed dimension numbers are "contract the last axis of both operands". -/
theorem dot_eq_rows : dot_S4096x64_S512x64_S4096x512_1_1_0_0_n_n = DotDims.transposedRhs 4096 64 512 := rfl

/-- The cross term at `(r, q)`: the inner product of row `r` of the points and row `q` of the prototypes. -/
theorem cross_apply (x : FVec Ideal S4096x64 .f32) (p : FVec Ideal S512x64 .f32) (hlt : FTy.bits .bf16 < FTy.bits .f32)
    (r : Fin 4096) (q : Fin 512) :
    matmul dot_S4096x64_S512x64_S4096x512_1_1_0_0_n_n none (truncf .bf16 x hlt) (truncf .bf16 p hlt)
        (constant S4096x512 .f32 0x00000000#32) (ix2 r q)
      = ∑ k : Fin 64, x (ix2 r k) * p (ix2 q k) :=
  Cert.Lib.DotRows.matmul_rows_apply dot_S4096x64_S512x64_S4096x512_1_1_0_0_n_n dot_eq_rows none
    (truncf .bf16 x hlt) (truncf .bf16 p hlt) r q

/-- THE STORED ENTRY: at `(r, q)` the body's payload is the Gaussian similarity of row `r` of the loaded points and row
    `q` of the loaded prototypes. -/
theorem payload_apply (x : Vec Ideal S4096x64 .f32) (p : Vec Ideal S512x64 .f32) (r : Fin 4096) (q : Fin 512) :
    k0_pay1 (F := Ideal) x p (ix2 r q) = Cert.Rbf.entry (fun k => x (ix2 r k)) (fun k => p (ix2 q k)) := by
  have hA := pointNorms_apply x reduces_S4096x64_S4096 (.inl rfl) rfl shapeCasts_S4096_S4096x1
    broadcasts_S4096x1_S4096x512 r q
  have hB := protoNorms_apply p reduces_S512x64_S512 (.inl rfl) rfl shapeCasts_S512_S512x1
    transposes_S512x1_p1_0_S1x512 broadcasts_S1x512_S4096x512 r q
  have hC := cross_apply x p bitsLt_bf16_f32 r q
  unfold k0_pay1 Cert.Rbf.entry
  exact congrArg (fun d => Ideal.exp (Ideal.ofBits .f32 0xBF800000#32 * max d (Ideal.ofBits .f32 0x00000000#32)))
    (congrArg₂ (fun s c => s - Ideal.ofBits .f32 0x40000000#32 * c) (congrArg₂ (fun a b => a + b) hA hB) hC)

end Cert.KernelIdeal.BodyValue

end
-- ==== Proof.BlocksToTable.lean ====
/-
  From the blocks to the whole array.

  The grid has 32 points; point `t` loads rows `4096·t … 4096·t + 4095` of the points and the whole prototype array, and
  writes back rows `4096·t … 4096·t + 4095` of the result, all 512 columns. So what point `t` writes back is block `t` of
  ONE array, the table of similarities `Cert.Rbf.table` of the two argument arrays: entry `(y₀, y₁)` of the block is the
  similarity of the block's row `y₀` — row `4096·t + y₀` of the points — and prototype `y₁`, which is entry
  `(4096·t + y₀, y₁)` of the table. The 32 blocks cover the array (row `r` lies in block `r / 4096`), hence after the run
  the result array IS the table.
-/
import proofs.«103054_j65481071403945_2_alg».proof.Proof.Gen.KernelIdeal.Value
import proofs.«103054_j65481071403945_2_alg».proof.Proof.BodyEntry
import Idealize.ShloMosaic.Lib.Pipeline.Value

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- The three index maps over the grid: the points' block and the result's block are both block `t` along the rows,
    the prototypes' block is always the whole array, and no window moves along the columns. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 32 row blocks is some point's. -/
theorem index_onto : ∀ b : Fin 32, ∃ t : Fin cfg0.N, win0_2.index t = ![b.val, 0] :=
  (by decide +kernel : ∀ b : Fin 32, ∃ t : Fin grid0.N, win0_2.index t = ![b.val, 0])

/-- An entry of the points' block at point `t` is the entry of the points' array at the block's offset. -/
theorem read_points (c : Dev nD) (t : Fin cfg0.N) (y : S4096x64.Idx) (i : S131072x64.Idx)
    (h0 : win0_0.index t (0 : Fin 2) * 4096 + 1 * (y 0).val = (i 0).val)
    (h1 : win0_0.index t (1 : Fin 2) * 64 + 1 * (y 1).val = (i 1).val) :
    iblk m c 0 t y = V m c main_arg0 i := by
  show V m c main_arg0 (((cfg0.win 0).blk t).view.emb y) = V m c main_arg0 i
  have e : ((cfg0.win 0).blk t).view.emb y = i := by
    funext a; apply Fin.ext
    match a with
    | ⟨0, _⟩ => exact h0
    | ⟨1, _⟩ => exact h1
  rw [e]

/-- An entry of the prototypes' block at point `t` is the entry of the prototypes' array at the block's offset. -/
theorem read_protos (c : Dev nD) (t : Fin cfg0.N) (y : S512x64.Idx) (i : S512x64.Idx)
    (h0 : win0_1.index t (0 : Fin 2) * 512 + 1 * (y 0).val = (i 0).val)
    (h1 : win0_1.index t (1 : Fin 2) * 64 + 1 * (y 1).val = (i 1).val) :
    iblk m c 1 t y = V m c main_arg1 i := by
  show V m c main_arg1 (((cfg0.win 1).blk t).view.emb y) = V m c main_arg1 i
  have e : ((cfg0.win 1).blk t).view.emb y = i := by
    funext a; apply Fin.ext
    match a with
    | ⟨0, _⟩ => exact h0
    | ⟨1, _⟩ => exact h1
  rw [e]

/-- One stored entry against one entry of the table: if row `j₀` of the loaded points is row `i₀` of the points' array and
    row `j₁` of the loaded prototypes is row `i₁` of the prototypes' array, the body's entry `j` is the table's entry `i`. -/
theorem entry_of_rows (x : Vec Ideal S4096x64 .f32) (p : Vec Ideal S512x64 .f32)
    (X : S131072x64.Idx → EReal) (P : S512x64.Idx → EReal) (j : S4096x512.Idx) (i : S131072x512.Idx)
    (hx : ∀ k : Fin 64, x (ix2 (⟨(j 0).val, (j 0).isLt⟩ : Fin 4096) k) = X (ix2 (⟨(i 0).val, (i 0).isLt⟩ : Fin 131072) k))
    (hp : ∀ k : Fin 64, p (ix2 (⟨(j 1).val, (j 1).isLt⟩ : Fin 512) k) = P (ix2 (⟨(i 1).val, (i 1).isLt⟩ : Fin 512) k)) :
    k0_pay1 (F := Ideal) x p j = Cert.Rbf.table X P i := by
  have ej : j = ix2 (⟨(j 0).val, (j 0).isLt⟩ : Fin 4096) (⟨(j 1).val, (j 1).isLt⟩ : Fin 512) :=
    funext fun a => by match a with | ⟨0, _⟩ => rfl | ⟨1, _⟩ => rfl
  refine (congrArg (k0_pay1 (F := Ideal) x p) ej).trans ?_
  refine (BodyValue.payload_apply x p _ _).trans ?_
  exact congrArg₂ Cert.Rbf.entry (funext hx) (funext hp)

/-- WHAT POINT `t` WRITES BACK is block `t` of the table of similarities of the two argument arrays. -/
theorem flushed_eq (c : Dev nD) (t : Fin cfg0.N) :
    (dats m 0 c).flushed 2 t
      = ((cfg0.win 2).blk t).view.read (Elt Ideal) (Cert.Rbf.table (V m c main_arg0) (V m c main_arg1)) := by
  rw [Value.flushed2 m c t]
  unfold out0_2
  rw [View.canon_unit_zero origin]
  simp only [View.ld_unit_zero (S := S4096x64) origin, View.ld_unit_zero (S := S512x64) origin]
  obtain ⟨e00, e01, e10, e11, e21⟩ := index_facts t
  funext j
  show k0_pay1 (F := Ideal) (iblk m c 0 t) (iblk m c 1 t) j
    = Cert.Rbf.table (V m c main_arg0) (V m c main_arg1) (((cfg0.win 2).blk t).view.emb j)
  refine entry_of_rows (iblk m c 0 t) (iblk m c 1 t) (V m c main_arg0) (V m c main_arg1) j
    (((cfg0.win 2).blk t).view.emb j) (fun k => ?_) (fun k => ?_)
  · refine read_points m c t _ _ ?_ ?_
    · show win0_0.index t (0 : Fin 2) * 4096 + 1 * (j 0).val = win0_2.index t (0 : Fin 2) * 4096 + 1 * (j 0).val
      rw [e00]
    · show win0_0.index t (1 : Fin 2) * 64 + 1 * k.val = k.val
      rw [e01]; omega
  · refine read_protos m c t _ _ ?_ ?_
    · show win0_1.index t (0 : Fin 2) * 512 + 1 * (j 1).val = win0_2.index t (1 : Fin 2) * 512 + 1 * (j 1).val
      rw [e10, e21]
    · show win0_1.index t (1 : Fin 2) * 64 + 1 * k.val = k.val
      rw [e11]; omega

/-- An index of the result array is in point `t`'s block iff each coordinate is in the block's range on its axis. -/
theorem mem_block (t : Fin cfg0.N) (i : S131072x512.Idx) :
    i ∈ ((cfg0.win 2).blk t).view.set ↔ ∀ a : Fin 2, win0_2.index t a * S4096x512.size a ≤ (i a).val
      ∧ (i a).val < win0_2.index t a * S4096x512.size a + S4096x512.size a := by
  show i ∈ ((View.whole main_v0).slice (win0_2.rect t)).set ↔ _
  rw [View.set_slice_whole, Rect.mem_set_unit]
  exact Iff.rfl

/-- THE BLOCKS COVER THE ARRAY: row `r` is in the block of the point whose row block is `r / 4096`. -/
theorem covered (i : S131072x512.Idx) :
    ∃ t : Fin cfg0.N, (cfg0.win 2).flush t = true ∧ i ∈ ((cfg0.win 2).blk t).view.set := by
  have hi0 : (i 0).val < 131072 := (i 0).isLt
  have hi1 : (i 1).val < 512 := (i 1).isLt
  obtain ⟨t, ht⟩ := index_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 512 ≤ (i 1).val ∧ (i 1).val < win0_2.index t (1 : Fin 2) * 512 + 512
    omega

/-- THE RESULT ARRAY after the run is the table of similarities of the argument arrays as launched. -/
theorem final (c : Dev nD) :
    (dats m 0 c).arrAt 2 cfg0.N
      = Cert.Rbf.table (m ((c : Thread nD τ).loc main_arg0)) (m ((c : Thread nD τ).loc main_arg1)) :=
  (dats m 0 c).arrAt_eq_of_cover 2 (Cert.Rbf.table (V m c main_arg0) (V m c main_arg1))
    (fun t _ => flushed_eq m c t) covered

/-- The kernel's run, read: the result array at the table of similarities, the arguments unchanged. -/
theorem run : θ_run defs (onTc (τ := τ) (main (F := Ideal))) ⟨m, fun _ => 0, ρ⟩ fun r => ∀ c : Dev nD,
      r.2.mem ((c : Thread nD τ).loc main_v0)
        = Cert.Rbf.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefTable.lean ====
/-
  The reference computes the table of Gaussian similarities.

  Read one operation at a time (the generated read-at-an-index lemmas), the reference's result at `(r, q)` is
  `exp (−1 · max (((0 + ∑ k, X[r,k]²) + (0 + ∑ k, P[q,k]²)) − 2 · ∑ k, X[r,k]·P[q,k], 0))`: the two squared norms are
  host sums from an initial value that is the float zero, broadcast along the other axis, and the cross term is the
  host's product contracting the feature axis of both operands. With `0 + s = s` this is `Cert.Rbf.table X P` at `(r, q)`.
-/
import proofs.«103054_j65481071403945_2_alg».proof.Proof.Gen.ReferenceIdeal.Read
import proofs.«103054_j65481071403945_2_alg».proof.Proof.RbfEntry
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The points' squared norm at `(r, q)` is summed over row `r` of the points. -/
theorem idx_pointRow (r : Fin 131072) (q : Fin 512) (k : Fin 64) :
    idx_main_v1 (idx_main_v2 (idx_main_v7 (ix2 r q))) k = ix2 r k :=
  funext fun a => Fin.ext (by match a with | ⟨0, _⟩ => rfl | ⟨1, _⟩ => rfl)

/-- The prototypes' squared norm at `(r, q)` is summed over row `q` of the prototypes. -/
theorem idx_protoRow (r : Fin 131072) (q : Fin 512) (k : Fin 64) :
    idx_main_v4 (idx_main_v6 (idx_main_v8 (ix2 r q))) k = ix2 q k :=
  funext fun a => Fin.ext (by match a with | ⟨0, _⟩ => rfl | ⟨1, _⟩ => rfl)

/-- The cross term at `(r, q)` reads row `r` of the points … -/
theorem idx_crossLeft (r : Fin 131072) (q : Fin 512) (k : Fin 64) : lidx_main_v5 (ix2 r q) k = ix2 r k :=
  funext fun a => Fin.ext (by match a with | ⟨0, _⟩ => rfl | ⟨1, _⟩ => rfl)

/-- … and row `q` of the prototypes. -/
theorem idx_crossRight (r : Fin 131072) (q : Fin 512) (k : Fin 64) : ridx_main_v5 (ix2 r q) k = ix2 q k :=
  funext fun a => Fin.ext (by match a with | ⟨0, _⟩ => rfl | ⟨1, _⟩ => rfl)

/-- THE REFERENCE'S RESULT is the table of similarities of the points' rows and the prototypes' rows. -/
theorem result_eq_table (X : (⟨S131072x64, .f32⟩ : BufTy).Contents (Elt Ideal)) (P : (⟨S512x64, .f32⟩ : BufTy).Contents (Elt Ideal)) :
    val_main_v17 (F := Ideal) X P = Cert.Rbf.table X P := by
  funext i
  obtain ⟨r, q, rfl⟩ : ∃ (r : Fin 131072) (q : Fin 512), i = ix2 r q := ⟨i 0, i 1, eq_ix2 i⟩
  rw [Cert.Rbf.table_apply]
  unfold Cert.Rbf.entry
  rw [val_main_v17_apply, val_main_v16_apply, val_main_v15_apply, val_main_cst_3_apply, val_main_v14_apply,
    val_main_v13_apply, val_main_cst_2_apply, val_main_v12_apply, val_main_v9_apply, val_main_v7_apply,
    val_main_v2_apply, val_main_v1_apply, val_main_cst_apply, val_main_v8_apply, val_main_v6_apply,
    val_main_v4_apply, val_main_cst_0_apply, val_main_v11_apply, val_main_v10_apply, val_main_cst_1_apply,
    val_main_v5_apply]
  simp only [val_main_v0_apply, val_main_v3_apply, idx_pointRow, idx_protoRow, idx_crossLeft, idx_crossRight]
  show Ideal.exp (Ideal.ofBits .f32 0xBF800000#32 *
      max (((Ideal.ofBits .f32 0x00000000#32 + ∑ k : Fin 64, X (ix2 r k) * X (ix2 r k))
            + (Ideal.ofBits .f32 0x00000000#32 + ∑ k : Fin 64, P (ix2 q k) * P (ix2 q k)))
          - Ideal.ofBits .f32 0x40000000#32 * ∑ k : Fin 64, X (ix2 r k) * P (ix2 q k))
        (Ideal.ofBits .f32 0x00000000#32)) = _
  rw [Ideal.ofBits_zero_f32, zero_add, zero_add]

end Cert.ReferenceIdeal.RefValue

end
-- ==== Proof.lean ====
/-
  The certificate of the Gaussian-similarity kernel: `out[i, j] = exp (−max (|x_i|² + |p_j|² − 2·⟨x_i, p_j⟩, 0))` for 131072
  points `x_i` and 512 prototypes `p_j` of 64 features.

  The kernel walks the points in 32 blocks of 4096 rows with the prototypes resident, and forms the cross term as a matrix
  product of the operands rounded to bf16; the reference forms the same expression on the whole arrays with an einsum. On
  the extended reals the rounding is the identity, the product into a zero accumulator is the plain sum of products, and a
  sum along the feature axis is the same sum on both sides, so both programs end with the table `Cert.Rbf.table` of their
  two arguments (Proof/RbfEntry.lean): the kernel block by block (Proof/BodyEntry.lean, Proof/BlocksToTable.lean), the
  reference operation by operation (Proof/RefTable.lean). The two expressions have the same grouping, so the only law used
  is `0 + s = s` for the host sums' initial value, and the inputs' finiteness is not needed.

  The ideal pass rewrote nothing, so the idealized kernel is the kernel's own text read on the extended reals.
-/
import proofs.«103054_j65481071403945_2_alg».proof.Defs
import proofs.«103054_j65481071403945_2_alg».proof.Proof.Gen.Kernel
import proofs.«103054_j65481071403945_2_alg».proof.Proof.Gen.Kernel.Skeleton
import proofs.«103054_j65481071403945_2_alg».proof.Proof.Gen.Kernel.Launch
import proofs.«103054_j65481071403945_2_alg».proof.Proof.Gen.Kernel.Points
import proofs.«103054_j65481071403945_2_alg».proof.Proof.Gen.Kernel.Frame
import proofs.«103054_j65481071403945_2_alg».proof.Proof.Gen.KernelIdeal
import proofs.«103054_j65481071403945_2_alg».proof.Proof.Gen.KernelIdeal.Skeleton
import proofs.«103054_j65481071403945_2_alg».proof.Proof.Gen.KernelIdeal.Launch
import proofs.«103054_j65481071403945_2_alg».proof.Proof.Gen.KernelIdeal.Points
import proofs.«103054_j65481071403945_2_alg».proof.Proof.Gen.KernelIdeal.Frame
import proofs.«103054_j65481071403945_2_alg».proof.Proof.Gen.KernelIdeal.Value
import proofs.«103054_j65481071403945_2_alg».proof.Proof.Gen.ReferenceIdeal
import proofs.«103054_j65481071403945_2_alg».proof.Proof.Gen.ReferenceIdeal.Run
import proofs.«103054_j65481071403945_2_alg».proof.Proof.Gen.ReferenceIdeal.Read
import proofs.«103054_j65481071403945_2_alg».proof.Proof.Gen.Pre_finite_inputs
import proofs.«103054_j65481071403945_2_alg».proof.Proof.BlocksToTable
import proofs.«103054_j65481071403945_2_alg».proof.Proof.RefTable
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the points and the prototypes, the kernel's result array and the
    reference's both end at the table of similarities of those two arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq_table, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
